-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S256x512 : Shape := ⟨2, ![256, 512]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S64x2048x256 .f32) (main_arg1 : FVec F S256x512 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S64x2048x256 : Shape := ⟨3, ![64, 2048, 256]⟩
abbrev S256x512 : Shape := ⟨2, ![256, 512]⟩
abbrev S64x512 : Shape := ⟨2, ![64, 512]⟩
abbrev S16x1024x256 : Shape := ⟨3, ![16, 1024, 256]⟩
abbrev S16x512 : Shape := ⟨2, ![16, 512]⟩
abbrev S16x256 : Shape := ⟨2, ![16, 256]⟩
abbrev S16x256x256 : Shape := ⟨3, ![16, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S64x2048x256, .f32⟩
  | .hbm, ⟨1, _⟩ => ⟨S256x512, .f32⟩
  | .hbm, ⟨2, _⟩ => ⟨S256x512, .bf16⟩
  | .hbm, ⟨3, _⟩ => ⟨S64x512, .f32⟩
  | .local _ .vmem, ⟨0, _⟩ => ⟨S16x1024x256, .f32⟩
  | .local _ .vmem, ⟨1, _⟩ => ⟨S16x1024x256, .f32⟩
  | .local _ .vmem, ⟨2, _⟩ => ⟨S256x512, .bf16⟩
  | .local _ .vmem, ⟨3, _⟩ => ⟨S16x512, .f32⟩
  | .local _ .vmem, ⟨4, _⟩ => ⟨S16x512, .f32⟩
  | .local _ .vmem, ⟨5, _⟩ => ⟨S16x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_28 : BitVec 32 := 0#32
  let v33 : BitVec 1 := Scalar.cmpi .ne v32 c0_i32_28
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1024x256_S16x256x256_0_0_0 : ∀ a, (![0, 0, 0] : Fin 3 → Nat) a + S16x256x256.size a ≤ S16x1024x256.size a
  h_S16x256x256 : 0 < S16x256x256.numel
  reduces_S16x256x256_S16x256 : S16x256x256.Reduces [1] S16x256
  inb_S16x1024x256_S16x256x256_0_256_0 : ∀ a, (![0, 256, 0] : Fin 3 → Nat) a + S16x256x256.size a ≤ S16x1024x256.size a
  inb_S16x1024x256_S16x256x256_0_512_0 : ∀ a, (![0, 512, 0] : Fin 3 → Nat) a + S16x256x256.size a ≤ S16x1024x256.size a
  inb_S16x1024x256_S16x256x256_0_768_0 : ∀ a, (![0, 768, 0] : Fin 3 → Nat) a + S16x256x256.size a ≤ S16x1024x256.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S16x512_S16x512_0_0 : ∀ a, (![0, 0] : Fin 2 → Nat) a + S16x512.size a ≤ S16x512.size a
  h_S16x512 : 0 < S16x512.numel
  dot_S16x256_S256x512_S16x512_1_0_0_1_n_n_wf : DotDims.WF S16x256 S256x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x256.size a ≤ S64x2048x256.size a
  hwx0_0 : ∀ i : grid0.Coords, EltTy.bits .f32 = 32 ∨ (Rect.block (s := S64x2048x256) S16x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S64x512.size a
  hwx0_2 : ∀ i : grid0.Coords, EltTy.bits .f32 = 32 ∨ (Rect.block (s := S64x512) S16x512.size (cc0_transform_2 i) (hinb0_2 i)).WholeWords (EltTy.packing .f32)

variable [Facts₀]

def dot_S16x256_S256x512_S16x512_1_0_0_1_n_n : DotDims S16x256 S256x512 S16x512 where
  lhsContracting := [1]
  rhsContracting := [0]
  lhsNonContracting := [0]
  rhsNonContracting := [1]
  lhsBatch := []
  rhsBatch := []
  wf := dot_S16x256_S256x512_S16x512_1_0_0_1_n_n_wf

abbrev win0_0 : Pipeline.Window sig grid0 :=
  Pipeline.Window.ofSpec (Memref.whole main_arg0) S16x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2048x256 : Shape := ⟨3, ![64, 2048, 256]⟩
abbrev S256x512 : Shape := ⟨2, ![256, 512]⟩
abbrev S_ : Shape := ⟨0, ![]⟩
abbrev S64x256 : Shape := ⟨2, ![64, 256]⟩
abbrev S64x512 : Shape := ⟨2, ![64, 512]⟩

abbrev nBuf : Space → Nat
  | .hbm => 8
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S256x512, .f32⟩
  | .hbm, ⟨2, _⟩ => ⟨S_, .f32⟩
  | .hbm, ⟨3, _⟩ => ⟨S64x256, .f32⟩
  | .hbm, ⟨4, _⟩ => ⟨S_, .f32⟩
  | .hbm, ⟨5, _⟩ => ⟨S64x256, .f32⟩
  | .hbm, ⟨6, _⟩ => ⟨S64x256, .f32⟩
  | .hbm, ⟨7, _⟩ => ⟨S64x512, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S64x2048x256_S64x256_d1 : S64x2048x256.ReducesTo [1] S64x256
  h_S_ : 0 < S_.numel
  bcast_S_S64x256 : S_.BroadcastsInDim S64x256 (![] : Fin 0 → Fin S64x256.rank)
  dot_S64x256_S256x512_S64x512_1_0_0_1_n_n_wf : DotDims.WF S64x256 S256x512 S64x512 [1] [0] [0] [1] [] []

variable [Facts₀]

def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf

class Facts : Prop extends Facts₀ where

variable [Facts]
-- ==== Proof.KernelPieces.lean ====
/-
  What one grid point leaves behind, as pure terms of what it was given.

  A grid point is a pair (row tile, sequence tile). The body keeps a 16 x 256 running sum in a scratch buffer:
  at a row tile's first sequence tile it stores zeros into it, then (at every sequence tile) it adds, four times,
  the sum over 256 consecutive sequence positions of its 16 x 1024 x 256 block of the input; at the row tile's last
  sequence tile it scales the running sum and multiplies it into the weight matrix, storing the 16 x 512 product
  into the output block. Every store covers its whole buffer, so what a buffer holds after the body is the payload of
  the last store into it, and each read-back of the scratch between two stores reads the store before it. This
  module states exactly that, for any float values: the scratch after a first sequence tile, the scratch after a
  later one (over what the tile before left), and the output block after a last one.
-/
import proofs.«144919_j11295763989053_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl

/-- The four slabs of 256 consecutive sequence positions of a 16 x 1024 x 256 block, as the body loads them. -/
abbrev slab0 (x : Vec F S16x1024x256 .f32) : Vec F S16x256x256 .f32 :=
  View.ld x (Rect.unit (s := S16x1024x256) ![0, 0, 0] S16x256x256.size inb_S16x1024x256_S16x256x256_0_0_0)
abbrev slab1 (x : Vec F S16x1024x256 .f32) : Vec F S16x256x256 .f32 :=
  View.ld x (Rect.unit (s := S16x1024x256) ![0, 256, 0] S16x256x256.size inb_S16x1024x256_S16x256x256_0_256_0)
abbrev slab2 (x : Vec F S16x1024x256 .f32) : Vec F S16x256x256 .f32 :=
  View.ld x (Rect.unit (s := S16x1024x256) ![0, 512, 0] S16x256x256.size inb_S16x1024x256_S16x256x256_0_512_0)
abbrev slab3 (x : Vec F S16x1024x256 .f32) : Vec F S16x256x256 .f32 :=
  View.ld x (Rect.unit (s := S16x1024x256) ![0, 768, 0] S16x256x256.size inb_S16x1024x256_S16x256x256_0_768_0)

/-- The running sum after the body has added the block's four slab sums, one after the other, to `acc`. -/
def addSlabs (acc : Vec F S16x256 .f32) (x : Vec F S16x1024x256 .f32) : Vec F S16x256 .f32 :=
  k0_pay1 (k0_pay6 (k0_pay5 (k0_pay4 acc (slab0 x)) (slab1 x)) (slab2 x)) (slab3 x)

/-- A first sequence tile leaves in the scratch the block's four slab sums added to the zeros it stored first. -/
theorem scratch_first (c : Dev nD) (i : grid0.Coords) (a2 : Memref sig .tc .vmem S16x1024x256 .f32) (h2 : a2.IsWhole)
    (a3 : Memref sig .tc .vmem S256x512 .bf16) (h3 : a3.IsWhole) (a4 : Memref sig .tc .vmem S16x512 .f32) (h4 : a4.IsWhole)
    (a5 : Memref sig .tc .vmem S16x256 .f32) (h5 : a5.IsWhole) (hc0 : cond0_0 i) (hc1 : ¬cond0_1 i)
    (x0 : Vec F S16x1024x256 .f32) (x1 : Vec F S256x512 .bf16) :
    sout0_A_0 c i a2 h2 a3 h3 a4 h4 a5 h5 hc0 hc1 x0 x1 = addSlabs k0_pay3 x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x256) zero2]
  simp only [View.readCov_cons_toLoadRect, View.readAt_eq_ld, h2.read_unread]
  rfl

/-- A later sequence tile leaves in the scratch the block's four slab sums added to what the tile before left. -/
theorem scratch_later (c : Dev nD) (i : grid0.Coords) (a2 : Memref sig .tc .vmem S16x1024x256 .f32) (h2 : a2.IsWhole)
    (a3 : Memref sig .tc .vmem S256x512 .bf16) (h3 : a3.IsWhole) (a4 : Memref sig .tc .vmem S16x512 .f32) (h4 : a4.IsWhole)
    (a5 : Memref sig .tc .vmem S16x256 .f32) (h5 : a5.IsWhole) (hc0 : ¬cond0_0 i) (hc1 : cond0_1 i)
    (x0 : Vec F S16x1024x256 .f32) (x1 : Vec F S256x512 .bf16) (xs : Vec F S16x256 .f32) :
    sout0_B_0 c i a2 h2 a3 h3 a4 h4 a5 h5 hc0 hc1 x0 x1 xs = addSlabs xs x0 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_cons_unit_zero (S := S16x256) zero2]
  simp only [View.readCov_cons_toLoadRect, View.readAt_eq_ld, h2.read_unread, h5.read_unread,
    View.ld_unit_zero (S := S16x256) zero2]
  rfl

/-- A last sequence tile leaves in the output block the scaled running sum times the weight block. -/
theorem out_last (c : Dev nD) (i : grid0.Coords) (a2 : Memref sig .tc .vmem S16x1024x256 .f32) (h2 : a2.IsWhole)
    (a3 : Memref sig .tc .vmem S256x512 .bf16) (h3 : a3.IsWhole) (a4 : Memref sig .tc .vmem S16x512 .f32) (h4 : a4.IsWhole)
    (a5 : Memref sig .tc .vmem S16x256 .f32) (h5 : a5.IsWhole) (hc0 : ¬cond0_0 i) (hc1 : cond0_1 i)
    (x0 : Vec F S16x1024x256 .f32) (x1 : Vec F S256x512 .bf16) (xs : Vec F S16x256 .f32) :
    out0_B_2 c i a2 h2 a3 h3 a4 h4 a5 h5 hc0 hc1 x0 x1 xs = k0_pay2 (addSlabs xs x0) x1 := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero (S := S16x512) zero2]
  simp only [View.readCov_cons_toLoadRect, View.readAt_eq_ld, h2.read_unread, h3.read_unread, h5.read_unread,
    View.ld_unit_zero (S := S16x256) zero2, View.ld_unit_zero (S := S256x512) zero2]
  rfl

end Cert.KernelIdeal.Pieces

end
-- ==== Proof.KernelPayloads.lean ====
/-
  The body's arithmetic read at an index, over the extended reals.

  Adding one slab to the running sum: at (row `r`, lane `k`) the new value is the old one plus the sum over the slab's
  256 sequence positions of the slab at (`r`, position, `k`) — the lane reduction runs over the middle axis and starts
  from zero. The four slab additions of one block therefore add four such sums, one after the other. The zeros the
  first sequence tile stores are the extended real zero's word at every index. The projection: at (row `r`, column `d`)
  the sum over the 256 contraction indices `k` of the running sum at (`r`, `k`), scaled by the word 2⁻¹¹, times the
  weight at (`k`, `d`) — changes of float format are the identity here, and the product accumulates into zeros.
-/
import proofs.«144919_j11295763989053_2_alg».proof.Proof.KernelPieces
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payloads

open Cert.KernelIdeal Cert.KernelIdeal.Gen Cert.KernelIdeal.Pieces

/-- The source index of the lane reduction over (row `r`, lane `k`) at position `s` of the reduced middle axis. -/
theorem lift_eq (r : Fin 16) (k : Fin 256) (s : Fin 256) :
    reduces_S16x256x256_S16x256.lift (ix2 r k) s = ix3 r s k :=
  funext fun a => Fin.ext (by match a with | ⟨0, _⟩ => rfl | ⟨1, _⟩ => rfl | ⟨2, _⟩ => rfl)

/-- One slab added to the running sum, at (row, lane): the old value plus the slab's sum over its 256 positions. -/
theorem addSlab_apply (acc : FVec Ideal S16x256 .f32) (v : FVec Ideal S16x256x256 .f32) (r : Fin 16) (k : Fin 256) :
    shapeCast S16x256 (addf acc (multiReduction .add [1] S16x256 v 0x00000000#32 reduces_S16x256x256_S16x256 (.inl rfl) rfl))
        shapeCasts_S16x256_S16x256 (ix2 r k)
      = acc (ix2 r k) + ∑ s : Fin 256, v (ix3 r s k) := by
  rw [shapeCast_self]
  refine (addf_apply acc _ (ix2 r k)).trans (congrArg (acc (ix2 r k) + ·) ?_)
  refine (Ideal.multiReduction_add_single v 0x00000000#32 reduces_S16x256x256_S16x256 (.inl rfl) rfl (ix2 r k)).trans ?_
  exact Finset.sum_congr rfl fun s _ => congrArg v (lift_eq r k s)

/-- A slab of a block at (row, position, lane) is the block at (row, slab offset + position, lane). -/
theorem slab0_apply (x : Vec Ideal S16x1024x256 .f32) (r : Fin 16) (s : Fin 256) (k : Fin 256) :
    slab0 (F := Ideal) x (ix3 r s k) = x (ix3 r ⟨0 + s.val, by have := s.isLt; omega⟩ k) :=
  congrArg x (funext fun a => Fin.ext (by
    match a with
    | ⟨0, _⟩ => show 0 + 1 * r.val = r.val; omega
    | ⟨1, _⟩ => show 0 + 1 * s.val = 0 + s.val; omega
    | ⟨2, _⟩ => show 0 + 1 * k.val = k.val; omega))

theorem slab1_apply (x : Vec Ideal S16x1024x256 .f32) (r : Fin 16) (s : Fin 256) (k : Fin 256) :
    slab1 (F := Ideal) x (ix3 r s k) = x (ix3 r ⟨256 + s.val, by have := s.isLt; omega⟩ k) :=
  congrArg x (funext fun a => Fin.ext (by
    match a with
    | ⟨0, _⟩ => show 0 + 1 * r.val = r.val; omega
    | ⟨1, _⟩ => show 256 + 1 * s.val = 256 + s.val; omega
    | ⟨2, _⟩ => show 0 + 1 * k.val = k.val; omega))

theorem slab2_apply (x : Vec Ideal S16x1024x256 .f32) (r : Fin 16) (s : Fin 256) (k : Fin 256) :
    slab2 (F := Ideal) x (ix3 r s k) = x (ix3 r ⟨512 + s.val, by have := s.isLt; omega⟩ k) :=
  congrArg x (funext fun a => Fin.ext (by
    match a with
    | ⟨0, _⟩ => show 0 + 1 * r.val = r.val; omega
    | ⟨1, _⟩ => show 512 + 1 * s.val = 512 + s.val; omega
    | ⟨2, _⟩ => show 0 + 1 * k.val = k.val; omega))

theorem slab3_apply (x : Vec Ideal S16x1024x256 .f32) (r : Fin 16) (s : Fin 256) (k : Fin 256) :
    slab3 (F := Ideal) x (ix3 r s k) = x (ix3 r ⟨768 + s.val, by have := s.isLt; omega⟩ k) :=
  congrArg x (funext fun a => Fin.ext (by
    match a with
    | ⟨0, _⟩ => show 0 + 1 * r.val = r.val; omega
    | ⟨1, _⟩ => show 768 + 1 * s.val = 768 + s.val; omega
    | ⟨2, _⟩ => show 0 + 1 * k.val = k.val; omega))

/-- The sum over the 256 positions of the slab of block `x` that starts at sequence position `off`, at (row, lane). -/
def slabAt (x : Vec Ideal S16x1024x256 .f32) (off : ℕ) (hoff : off + 256 ≤ 1024) (r : Fin 16) (k : Fin 256) : EReal :=
  ∑ s : Fin 256, x (ix3 r ⟨off + s.val, by have := s.isLt; omega⟩ k)

/-- The four slab additions of one block, at (row, lane): the old value plus the four slab sums, in order. -/
theorem addSlabs_apply (acc : FVec Ideal S16x256 .f32) (x : Vec Ideal S16x1024x256 .f32) (r : Fin 16) (k : Fin 256) :
    addSlabs (F := Ideal) acc x (ix2 r k)
      = (((acc (ix2 r k) + slabAt x 0 (by omega) r k) + slabAt x 256 (by omega) r k) + slabAt x 512 (by omega) r k)
          + slabAt x 768 (by omega) r k := by
  unfold addSlabs k0_pay1 k0_pay6 k0_pay5 k0_pay4
  refine (addSlab_apply _ (slab3 x) r k).trans ?_
  refine congrArg₂ (· + ·) ?_ (Finset.sum_congr rfl fun s _ => slab3_apply x r s k)
  refine (addSlab_apply _ (slab2 x) r k).trans ?_
  refine congrArg₂ (· + ·) ?_ (Finset.sum_congr rfl fun s _ => slab2_apply x r s k)
  refine (addSlab_apply _ (slab1 x) r k).trans ?_
  refine congrArg₂ (· + ·) ?_ (Finset.sum_congr rfl fun s _ => slab1_apply x r s k)
  refine (addSlab_apply acc (slab0 x) r k).trans ?_
  exact congrArg (acc (ix2 r k) + ·) (Finset.sum_congr rfl fun s _ => slab0_apply x r s k)

/-- The zeros a first sequence tile stores, at any index: the zero word. -/
theorem zeros_apply (r : Fin 16) (k : Fin 256) : k0_pay3 (F := Ideal) (ix2 r k) = Ideal.ofBits .f32 0x00000000#32 := by
  unfold k0_pay3
  rw [shapeCast_self]
  rfl

/-! ### The projection: the contraction's operand indices, coordinate by coordinate -/

theorem lhs_row (i : S16x512.Idx) (q : dot_S16x256_S256x512_S16x512_1_0_0_1_n_n.contr.Idx) :
    (dot_S16x256_S256x512_S16x512_1_0_0_1_n_n.lhsIdx i q 0).val = (i 0).val := by
  unfold DotDims.lhsIdx
  rw [dif_neg (show ¬(0 : Fin S16x256.rank) ∈ dot_S16x256_S256x512_S16x512_1_0_0_1_n_n.lhsBatch by decide), dif_pos (show (0 : Fin S16x256.rank) ∈ dot_S16x256_S256x512_S16x512_1_0_0_1_n_n.lhsNonContracting by decide)]
  rfl
theorem lhs_contr (i : S16x512.Idx) (q : dot_S16x256_S256x512_S16x512_1_0_0_1_n_n.contr.Idx) :
    (dot_S16x256_S256x512_S16x512_1_0_0_1_n_n.lhsIdx i q 1).val = (q ⟨0, by decide⟩).val :=
  dot_S16x256_S256x512_S16x512_1_0_0_1_n_n.lhsIdx_val_of_single rfl i q
theorem rhs_contr (i : S16x512.Idx) (q : dot_S16x256_S256x512_S16x512_1_0_0_1_n_n.contr.Idx) :
    (dot_S16x256_S256x512_S16x512_1_0_0_1_n_n.rhsIdx i q 0).val = (q ⟨0, by decide⟩).val :=
  dot_S16x256_S256x512_S16x512_1_0_0_1_n_n.rhsIdx_val_of_single rfl i q
theorem rhs_col (i : S16x512.Idx) (q : dot_S16x256_S256x512_S16x512_1_0_0_1_n_n.contr.Idx) :
    (dot_S16x256_S256x512_S16x512_1_0_0_1_n_n.rhsIdx i q 1).val = (i 1).val := by
  unfold DotDims.rhsIdx
  rw [dif_neg (show ¬(1 : Fin S256x512.rank) ∈ dot_S16x256_S256x512_S16x512_1_0_0_1_n_n.rhsBatch by decide), dif_pos (show (1 : Fin S256x512.rank) ∈ dot_S16x256_S256x512_S16x512_1_0_0_1_n_n.rhsNonContracting by decide)]
  rfl

/-- The projection at (row, column): the sum over the contraction index of the scaled running sum times the weight. -/
theorem project_apply (a : FVec Ideal S16x256 .f32) (w : FVec Ideal S256x512 .bf16) (r : Fin 16) (d : Fin 512) :
    k0_pay2 (F := Ideal) a w (ix2 r d)
      = ∑ k : Fin 256, (a (ix2 r k) * Ideal.ofBits .f32 0x3A000000#32) * w (ix2 k d) := by
  unfold k0_pay2
  refine (Ideal.matmul_constant_zero_apply dot_S16x256_S256x512_S16x512_1_0_0_1_n_n none _ _ (ix2 r d)).trans ?_
  rw [← Equiv.sum_comp (contrEquiv1 dot_S16x256_S256x512_S16x512_1_0_0_1_n_n 256 rfl rfl).symm]
  refine Finset.sum_congr rfl fun k _ => ?_
  have hk := contrEquiv1_symm_val dot_S16x256_S256x512_S16x512_1_0_0_1_n_n 256 rfl rfl k
  have el : dot_S16x256_S256x512_S16x512_1_0_0_1_n_n.lhsIdx (ix2 r d) ((contrEquiv1 dot_S16x256_S256x512_S16x512_1_0_0_1_n_n 256 rfl rfl).symm k) = ix2 r k := funext fun a => Fin.ext (by
    match a with
    | ⟨0, _⟩ => exact lhs_row _ _
    | ⟨1, _⟩ => exact (lhs_contr _ _).trans hk)
  have er : dot_S16x256_S256x512_S16x512_1_0_0_1_n_n.rhsIdx (ix2 r d) ((contrEquiv1 dot_S16x256_S256x512_S16x512_1_0_0_1_n_n 256 rfl rfl).symm k) = ix2 k d := funext fun a => Fin.ext (by
    match a with
    | ⟨0, _⟩ => exact (rhs_contr _ _).trans hk
    | ⟨1, _⟩ => exact rhs_col _ _)
  rw [el, er, shapeCast_self]
  rfl

end Cert.KernelIdeal.Payloads

end
-- ==== Proof.MeanProjectSpec.lean ====
/-
  The mathematics of the certificate, with no program in sight.

  Both programs compute, for a batch row `b` and an output column `d`,

      out b d = ∑ k < 256, mean b k * w k d,      mean b k = (∑ s < 2048, x b s k) / 2048

  over the extended reals. They differ in two ways only. One divides the column sum by the word 2048.0; the other
  multiplies it by the word 0.00048828125, which is exactly 2⁻¹¹: on every extended real, infinite ones included, the
  product with 1/2048 is the quotient by 2048. One adds the 2048 positions in a single sum from zero; the other adds
  eight sums of 256 consecutive positions, one after the other, to a zero: addition of extended reals is associative
  and commutative, so no finiteness is needed to regroup it.
-/
import Idealize.ShloMosaic.PureOps.Ideal
import Idealize.ShloMosaic.PureOps.Ideal.Laws
import Idealize.ShloMosaic.Lib.ValueIdx

noncomputable section

namespace Cert.MeanProject

open Idealize.ShloMosaic Idealize.ShloMosaic.ValueIdx

/-- The word 2048.0 is the real 2048. -/
theorem word_2048 : Ideal.ofBits .f32 0x45000000#32 = ((2048 : ℝ) : EReal) := by
  simp [Ideal.ofBits, Ideal.ieee, -EReal.coe_mul]; norm_num

/-- The word 0.00048828125 is the real 1/2048 exactly (it is 2⁻¹¹). -/
theorem word_inv_2048 : Ideal.ofBits .f32 0x3A000000#32 = ((1 / 2048 : ℝ) : EReal) := by
  simp [Ideal.ofBits, Ideal.ieee, -EReal.coe_mul]; norm_num

/-- Scaling by 2⁻¹¹ is dividing by 2048, on every extended real. -/
theorem scale_eq_div (a : EReal) :
    a * Ideal.ofBits .f32 0x3A000000#32 = Ideal.div a (Ideal.ofBits .f32 0x45000000#32) := by
  rw [word_2048, word_inv_2048, Ideal.div_coe (by norm_num : (2048 : ℝ) ≠ 0)]

/-- A sum over `m * n` positions is the sum over `m` groups of the sums over the `n` consecutive positions of each. -/
theorem sum_groups {M : Type*} [AddCommMonoid M] (m n : ℕ) (f : Fin (m * n) → M) :
    ∑ i, f i = ∑ j : Fin m, ∑ s : Fin n, f (finProdFinEquiv (j, s)) :=
  (Equiv.sum_comp finProdFinEquiv f).symm.trans (Fintype.sum_prod_type _)

/-- The sum of `f` over the 256 consecutive sequence positions starting at `256 * j`. -/
def slabSum (f : Fin 2048 → EReal) (j : Fin 8) : EReal :=
  ∑ s : Fin 256, f ⟨256 * j.val + s.val, by have := j.isLt; have := s.isLt; omega⟩

/-- A sum over the 2048 sequence positions is the sum of its eight slab sums. -/
theorem sum_eq_slabs (f : Fin 2048 → EReal) : ∑ s, f s = ∑ j : Fin 8, slabSum f j := by
  refine (sum_groups 8 256 f).trans (Finset.sum_congr rfl fun j _ => Finset.sum_congr rfl fun s _ => ?_)
  exact congrArg f (Fin.ext (by simp [finProdFinEquiv]; omega))

/-- THE LAW joining the two programs, for one (row, contraction index): eight slab sums added one after the other
    to a zero and then scaled by 2⁻¹¹ are the single sum from zero divided by 2048. -/
theorem chain_eq_mean (f : Fin 2048 → EReal) :
    ((((((((Ideal.ofBits .f32 0x00000000#32 + slabSum f 0) + slabSum f 1) + slabSum f 2) + slabSum f 3)
        + slabSum f 4) + slabSum f 5) + slabSum f 6) + slabSum f 7) * Ideal.ofBits .f32 0x3A000000#32
      = Ideal.div (Ideal.ofBits .f32 0x00000000#32 + ∑ s, f s) (Ideal.ofBits .f32 0x45000000#32) := by
  rw [scale_eq_div, sum_eq_slabs, Fin.sum_univ_eight]
  simp only [add_assoc]

/-- THE SPECIFICATION: the mean over the sequence axis, projected by the weight matrix, at (row `b`, column `d`). -/
def meanProject (x : (⟨3, ![64, 2048, 256]⟩ : Shape).Idx → EReal) (w : (⟨2, ![256, 512]⟩ : Shape).Idx → EReal)
    (b : Fin 64) (d : Fin 512) : EReal :=
  ∑ k : Fin 256, Ideal.div (Ideal.ofBits .f32 0x00000000#32 + ∑ s : Fin 2048, x (ix3 b s k))
    (Ideal.ofBits .f32 0x45000000#32) * w (ix2 k d)

/-- The specification as an array: one entry per (row, column). -/
def meanProjectArr (x : (⟨3, ![64, 2048, 256]⟩ : Shape).Idx → EReal) (w : (⟨2, ![256, 512]⟩ : Shape).Idx → EReal) :
    (⟨2, ![64, 512]⟩ : Shape).Idx → EReal :=
  fun i => meanProject x w (i 0) (i 1)

end Cert.MeanProject

end
-- ==== Proof.KernelPooled.lean ====
/-
  The kernel computes the specification.

  The grid has eight points: point `t` works on row tile `t / 2` (16 batch rows) and sequence tile `t % 2` (1024
  positions). Its input block is the input array at rows `16 (t / 2) + r`, positions `1024 (t % 2) + s`; its weight
  block is the whole weight matrix (its change of float format is the identity over the extended reals); the output
  block of row tile `t / 2` is written back after the odd point only. At an odd point the scratch holds the zeros of
  the even point before it plus that point's four slab sums plus this point's four: the eight slab sums of the 2048
  positions of rows `16 (t / 2) + r`, added one after the other. Scaled and projected, by the law of the
  specification's module, that is the specification at those rows: what each odd point writes back is its block of
  ONE array, and the four odd points' blocks cover the 64 rows.
-/
import proofs.«144919_j11295763989053_2_alg».proof.Proof.Gen.KernelIdeal.Value
import proofs.«144919_j11295763989053_2_alg».proof.Proof.KernelPayloads
import proofs.«144919_j11295763989053_2_alg».proof.Proof.MeanProjectSpec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Pooled

open Cert.KernelIdeal Cert.KernelIdeal.Gen Cert.KernelIdeal.Pieces Cert.KernelIdeal.Payloads Cert.MeanProject

variable (m : (ℓ : Loc nD τ sig) → Buf (Elt Ideal) ℓ) (ρ : Dev nD → PrngReg)

/-- Where each window's block sits at point `t`: the input's at (row tile, sequence tile, 0), the weight's at the
    origin, the output's at (row tile, 0) — decided once over the eight points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = t.val / 2 ∧ win0_2.index t (1 : Fin 2) = 0 :=
  (by decide +kernel : ∀ t : Fin grid0.N, _)

/-- The batch row under row `r` of point `t`'s row tile, and the sequence position under position `s` of its
    sequence tile. -/
def rowOf (t : Fin cfg0.N) (r : Fin 16) : Fin 64 :=
  ⟨16 * (t.val / 2) + r.val, by have := t.isLt; have hN : cfg0.N = 8 := N_0; have := r.isLt; omega⟩
def posOf (t : Fin cfg0.N) (s : Fin 1024) : Fin 2048 :=
  ⟨1024 * (t.val % 2) + s.val, by have := s.isLt; omega⟩

/-- Point `t`'s input block at (row, position, lane) is the input array at (its batch row, its sequence position, lane). -/
theorem xblock_apply (c : Dev nD) (t : Fin cfg0.N) (r : Fin 16) (s : Fin 1024) (k : Fin 256) :
    (iblk m c 0 t : Vec Ideal S16x1024x256 .f32) (ix3 r s k)
      = m ((c : Thread nD τ).loc main_arg0) (ix3 (rowOf t r) (posOf t s) k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 16 + 1 * r.val = 16 * (t.val / 2) + r.val; rw [e0]; omega
  | ⟨1, _⟩ => show win0_0.index t (1 : Fin 3) * 1024 + 1 * s.val = 1024 * (t.val % 2) + s.val; rw [e1]; omega
  | ⟨2, _⟩ => show win0_0.index t (2 : Fin 3) * 256 + 1 * k.val = k.val; rw [e2]; omega

/-- The weight array as the region finds it: the weight argument through a change of float format. -/
theorem weights_entry (c : Dev nD) :
    V m c main_v0 = fun i : S256x512.Idx => (m ((c : Thread nD τ).loc main_arg1) i : EReal) := by
  dsimp only [V, hostOps0]; after_results; rfl

/-- Every point's weight block at (contraction index, column) is the weight argument there. -/
theorem wblock_apply (c : Dev nD) (t : Fin cfg0.N) (k : Fin 256) (d : Fin 512) :
    (iblk m c 1 t : Vec Ideal S256x512 .bf16) (ix2 k d) = m ((c : Thread nD τ).loc main_arg1) (ix2 k d) := by
  obtain ⟨-, -, -, e3, e4, -⟩ := idx_facts t
  unfold iblk
  rw [View.read_apply]
  show V m c main_v0 _ = _
  rw [weights_entry]
  refine congrArg (m ((c : Thread nD τ).loc main_arg1)) (funext fun a => Fin.ext ?_)
  match a with
  | ⟨0, _⟩ => show win0_1.index t (0 : Fin 2) * 256 + 1 * k.val = k.val; rw [e3]; omega
  | ⟨1, _⟩ => show win0_1.index t (1 : Fin 2) * 512 + 1 * d.val = d.val; rw [e4]; omega

/-- A slab sum of point `t`'s input block, at (row, lane), is the slab sum of the input array's column at (its batch row,
    lane) over the 256 positions that start at the block's sequence tile plus the slab's offset. -/
theorem slabAt_block (c : Dev nD) (t : Fin cfg0.N) (off : ℕ) (hoff : off + 256 ≤ 1024) (r : Fin 16) (k : Fin 256)
    (b : Fin 64) (hb : b = rowOf t r) (j : Fin 8) (hj : 256 * j.val = 1024 * (t.val % 2) + off) :
    slabAt (iblk m c 0 t) off hoff r k = slabSum (fun s => m ((c : Thread nD τ).loc main_arg0) (ix3 b s k)) j := by
  subst hb
  unfold slabAt slabSum
  refine Finset.sum_congr rfl fun s _ => ?_
  refine (xblock_apply m c t r ⟨off + s.val, by have := s.isLt; omega⟩ k).trans ?_
  exact congrArg (fun p => m ((c : Thread nD τ).loc main_arg0) (ix3 (rowOf t r) p k))
    (Fin.ext (by show 1024 * (t.val % 2) + (off + s.val) = 256 * j.val + s.val; omega))

/-- The point before an odd point (the even point of the same row tile). -/
def before (t : Fin cfg0.N) : Fin cfg0.N := ⟨t.val - 1, Nat.lt_of_le_of_lt (Nat.sub_le _ _) t.isLt⟩

/-- WHAT AN ODD POINT COMPUTES, at (row, column): from the zeros, the even point's four slab sums and its own four,
    scaled and projected — the specification at its batch row. -/
theorem out_apply (c : Dev nD) (t : Fin cfg0.N) (h1 : t.val % 2 = 1) (r : Fin 16) (d : Fin 512) :
    k0_pay2 (F := Ideal) (addSlabs (F := Ideal) (addSlabs (F := Ideal) (k0_pay3 (F := Ideal)) (iblk m c 0 (before t))) (iblk m c 0 t)) (iblk m c 1 t) (ix2 r d)
      = meanProject (m ((c : Thread nD τ).loc main_arg0)) (m ((c : Thread nD τ).loc main_arg1)) (rowOf t r) d := by
  have hb : rowOf t r = rowOf (before t) r := Fin.ext (by show 16 * (t.val / 2) + r.val = 16 * ((t.val - 1) / 2) + r.val; omega)
  have hp : (before t).val % 2 = 0 := by show (t.val - 1) % 2 = 0; omega
  refine (project_apply _ _ r d).trans ?_
  unfold meanProject
  refine Finset.sum_congr rfl fun k _ => ?_
  refine congrArg₂ (· * ·) ?_ (wblock_apply m c t k d)
  refine (congrArg (· * Ideal.ofBits .f32 0x3A000000#32) ?_).trans
    (chain_eq_mean (fun s => m ((c : Thread nD τ).loc main_arg0) (ix3 (rowOf t r) s k)))
  refine (addSlabs_apply _ (iblk m c 0 t) r k).trans ?_
  rw [slabAt_block m c t 0 (by omega) r k (rowOf t r) rfl 4 (by show 256 * 4 = 1024 * (t.val % 2) + 0; omega),
    slabAt_block m c t 256 (by omega) r k (rowOf t r) rfl 5 (by show 256 * 5 = 1024 * (t.val % 2) + 256; omega),
    slabAt_block m c t 512 (by omega) r k (rowOf t r) rfl 6 (by show 256 * 6 = 1024 * (t.val % 2) + 512; omega),
    slabAt_block m c t 768 (by omega) r k (rowOf t r) rfl 7 (by show 256 * 7 = 1024 * (t.val % 2) + 768; omega)]
  refine congrArg (fun p => (((p + _) + _) + _) + _) ?_
  refine (addSlabs_apply _ (iblk m c 0 (before t)) r k).trans ?_
  rw [zeros_apply,
    slabAt_block m c (before t) 0 (by omega) r k (rowOf t r) hb 0 (by show 256 * 0 = 1024 * ((before t).val % 2) + 0; omega),
    slabAt_block m c (before t) 256 (by omega) r k (rowOf t r) hb 1 (by show 256 * 1 = 1024 * ((before t).val % 2) + 256; omega),
    slabAt_block m c (before t) 512 (by omega) r k (rowOf t r) hb 2 (by show 256 * 2 = 1024 * ((before t).val % 2) + 512; omega),
    slabAt_block m c (before t) 768 (by omega) r k (rowOf t r) hb 3 (by show 256 * 3 = 1024 * ((before t).val % 2) + 768; omega)]

/-- THE RESULT: the specification of the two argument arrays. -/
abbrev result (c : Dev nD) : S64x512.Idx → EReal :=
  meanProjectArr (m ((c : Thread nD τ).loc main_arg0)) (m ((c : Thread nD τ).loc main_arg1))

/-- The result at an index: the specification at its two coordinates. -/
theorem result_apply (c : Dev nD) (i : S64x512.Idx) :
    result m c i = meanProject (m ((c : Thread nD τ).loc main_arg0)) (m ((c : Thread nD τ).loc main_arg1)) (i 0) (i 1) := rfl

/-- What a point that writes back (an odd one) writes back is its block of the result. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have h0 : ¬t.val % 2 = 0 := by omega
  have h0' : (before t).val % 2 = 0 := by show (t.val - 1) % 2 = 0; omega
  have h1' : ¬(before t).val % 2 = 1 := by show ¬(t.val - 1) % 2 = 1; omega
  obtain ⟨-, -, -, -, -, e5, e6⟩ := idx_facts t
  have hprev : (outsAt0 m c (t.val - 1) (Nat.lt_of_le_of_lt (Nat.sub_le _ _) t.isLt)).2
      = addSlabs (F := Ideal) (k0_pay3 (F := Ideal)) (iblk m c 0 (before t)) :=
    (congrArg Prod.snd (outsAt0_A m c (before t) h0' h1')).trans
      (scratch_first c (grid0.coords (before t)) (ms0_0 (before t)) (hs0_0 (before t)) (ms0_1 (before t)) (hs0_1 (before t))
        (ms0_2 (before t)) (hs0_2 (before t)) scM0_0 (Memref.isWhole_whole _) ((hcond0_0 (before t)).mpr h0')
        (fun h => h1' ((hcond0_1 (before t)).mp h)) (iblk m c 0 (before t)) (iblk m c 1 (before t)))
  rw [Cert.KernelIdeal.Value.flushed2_B m c t h0 h1]
  refine (congrArg ((cfg0.win 2).cut (grid0.coords t))
    (out_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)).trans ?_
  funext j
  have hj0 : (j 0).val < 16 := (j 0).isLt
  have hj1 : (j 1).val < 512 := (j 1).isLt
  have ej : (j : S16x512.Idx) = ix2 (⟨(j 0).val, hj0⟩ : Fin 16) (⟨(j 1).val, hj1⟩ : Fin 512) :=
    funext fun a => Fin.ext (by match a with | ⟨0, _⟩ => rfl | ⟨1, _⟩ => rfl)
  show k0_pay2 (F := Ideal) (addSlabs (F := Ideal) (outsAt0 m c (t.val - 1) _).2 (iblk m c 0 t)) (iblk m c 1 t) (j : S16x512.Idx)
    = result m c (((cfg0.win 2).blk t).view.emb j)
  rw [hprev]
  refine ((congrArg (k0_pay2 (F := Ideal) (addSlabs (F := Ideal) (addSlabs (F := Ideal) (k0_pay3 (F := Ideal)) (iblk m c 0 (before t))) (iblk m c 0 t)) (iblk m c 1 t)) ej).trans
    (out_apply m c t h1 ⟨(j 0).val, hj0⟩ ⟨(j 1).val, hj1⟩)).trans ?_
  refine Eq.trans ?_ (result_apply m c (((cfg0.win 2).blk t).view.emb j)).symm
  refine congrArg₂ (meanProject (m ((c : Thread nD τ).loc main_arg0)) (m ((c : Thread nD τ).loc main_arg1))) (Fin.ext ?_) (Fin.ext ?_)
  · show 16 * (t.val / 2) + (j 0).val = win0_2.index t (0 : Fin 2) * 16 + 1 * (j 0).val; rw [e5]; omega
  · show (j 1).val = win0_2.index t (1 : Fin 2) * 512 + 1 * (j 1).val; rw [e6]; omega

/-- An index of the result array is in point `t`'s output block iff each coordinate is in the block's range. -/
theorem mem_blk (t : Fin cfg0.N) (i : S64x512.Idx) :
    i ∈ ((cfg0.win 2).blk t).view.set ↔ ∀ a : Fin 2, win0_2.index t a * S16x512.size a ≤ (i a).val
      ∧ (i a).val < win0_2.index t a * S16x512.size a + S16x512.size a := by
  show i ∈ ((View.whole main_v1).slice (win0_2.rect t)).set ↔ _
  rw [View.set_slice_whole, Rect.mem_set_unit]
  exact Iff.rfl

/-- Every index of the result array is in the block some odd point writes back: row `b`'s is point `2 (b / 16) + 1`. -/
theorem cover (i : S64x512.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hN : cfg0.N = 8 := N_0
  have ht : 2 * ((i 0).val / 16) + 1 < cfg0.N := by omega
  refine ⟨⟨2 * ((i 0).val / 16) + 1, ht⟩, (flush0_2 _).mpr (by show (2 * ((i 0).val / 16) + 1) % 2 = 1; omega), ?_⟩
  obtain ⟨-, -, -, -, -, e5, e6⟩ := idx_facts ⟨2 * ((i 0).val / 16) + 1, ht⟩
  have e5' : win0_2.index ⟨2 * ((i 0).val / 16) + 1, ht⟩ (0 : Fin 2) = (2 * ((i 0).val / 16) + 1) / 2 := e5
  rw [mem_blk]
  intro a
  match a with
  | ⟨0, _⟩ =>
    show win0_2.index ⟨2 * ((i 0).val / 16) + 1, ht⟩ (0 : Fin 2) * 16 ≤ (i 0).val
      ∧ (i 0).val < win0_2.index ⟨2 * ((i 0).val / 16) + 1, ht⟩ (0 : Fin 2) * 16 + 16
    rw [e5']; omega
  | ⟨1, _⟩ =>
    show win0_2.index ⟨2 * ((i 0).val / 16) + 1, ht⟩ (1 : Fin 2) * 512 ≤ (i 1).val
      ∧ (i 1).val < win0_2.index ⟨2 * ((i 0).val / 16) + 1, ht⟩ (1 : Fin 2) * 512 + 512
    rw [e6]; omega

/-- So the result array ends holding the specification of the argument arrays. -/
theorem final (c : Dev nD) : (dats m 0 c).arrAt 2 cfg0.N = result m c :=
  (dats m 0 c).arrAt_eq_of_cover 2 (result m c) (flushed_eq m c) (cover)

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Pooled

end
-- ==== Proof.RefPooled.lean ====
/-
  The reference computes the specification.

  Read one operation at a time, the reference's result at (row `b`, column `d`) is the sum over the contraction index
  `k` of its mean at (`b`, `k`) times the weight at (`k`, `d`), and its mean at (`b`, `k`) is the zero it starts from plus
  the sum over the 2048 sequence positions `s` of the input at (`b`, `s`, `k`), divided by the word 2048.0: the
  specification's own formula, once the index functions of the reading are written with coordinates.
-/
import proofs.«144919_j11295763989053_2_alg».proof.Proof.Gen.ReferenceIdeal.Read
import proofs.«144919_j11295763989053_2_alg».proof.Proof.MeanProjectSpec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MeanProject

/-- The reference's result, as read by its stages, is the specification of its two arguments. -/
theorem result_eq_spec (x0 : (⟨S64x2048x256, .f32⟩ : BufTy).Contents (Elt Ideal)) (x1 : (⟨S256x512, .f32⟩ : BufTy).Contents (Elt Ideal)) :
    val_main_v3 (F := Ideal) x0 x1 = meanProjectArr x0 x1 := by
  funext i
  obtain ⟨b, d, rfl⟩ : ∃ (b : Fin 64) (d : Fin 512), i = ix2 b d := ⟨i 0, i 1, eq_ix2 i⟩
  have er : ∀ k : Fin 256, ridx_main_v3 (ix2 b d) k = ix2 k d := fun k =>
    funext fun a => Fin.ext (by match a with | ⟨0, _⟩ => rfl | ⟨1, _⟩ => rfl)
  have es : ∀ (k : Fin 256) (s : Fin 2048), idx_main_v0 (lidx_main_v3 (ix2 b d) k) s = ix3 b s k := fun k s =>
    funext fun a => Fin.ext (by match a with | ⟨0, _⟩ => rfl | ⟨1, _⟩ => rfl | ⟨2, _⟩ => rfl)
  rw [val_main_v3_apply]
  unfold meanProjectArr meanProject
  refine Finset.sum_congr rfl fun k _ => ?_
  rw [val_main_v2_apply, val_main_v0_apply, val_main_v1_apply, val_main_cst_0_apply, val_main_cst_apply, er k]
  simp only [es, Ideal.hostDivf_def, Ideal.ofBits_def]

end Cert.ReferenceIdeal.RefValue

end
-- ==== Proof.lean ====
/-
  Mean-pooling over the sequence axis followed by a projection: the kernel against its reference.

  For x : [64, 2048, 256] and w : [256, 512] both programs end with, at (row b, column d),

      ∑ k < 256, ((∑ s < 2048, x b s k) / 2048) * w k d

  over the extended reals. The reference takes the sum over the sequence axis in one reduction from zero, divides by
  the word 2048.0 and contracts with w. The kernel walks a grid of four row tiles by two sequence tiles: per row tile it
  zeroes a 16 x 256 running sum, adds to it eight sums of 256 consecutive sequence positions (four per sequence tile),
  multiplies it by the word 0.00048828125 = 2⁻¹¹ and contracts it with w, writing the row tile's 16 x 512 block once.
  The two agree because the product with 1/2048 is the quotient by 2048 on every extended real, and because addition
  of extended reals may be regrouped freely; the changes of float format on the kernel's side are the identity there.
  Neither law needs the inputs to be finite, so the precondition is never opened.

  The frames of the two kernel programs are the generated ones; the reference's frame is its run with the result
  dropped; the idealization rewrote nothing, so it preserves trivially; the algebraic claim sets the kernel's run
  (its result array at the specification) beside the reference's (its result read one operation at a time: the same
  specification) from memories that agree on the arguments.
-/
import proofs.«144919_j11295763989053_2_alg».proof.Defs
import proofs.«144919_j11295763989053_2_alg».proof.Proof.Gen.Kernel
import proofs.«144919_j11295763989053_2_alg».proof.Proof.Gen.Kernel.Frame
import proofs.«144919_j11295763989053_2_alg».proof.Proof.Gen.KernelIdeal
import proofs.«144919_j11295763989053_2_alg».proof.Proof.Gen.KernelIdeal.Frame
import proofs.«144919_j11295763989053_2_alg».proof.Proof.Gen.ReferenceIdeal
import proofs.«144919_j11295763989053_2_alg».proof.Proof.Gen.ReferenceIdeal.Run
import proofs.«144919_j11295763989053_2_alg».proof.Proof.Gen.Pre_finite_inputs
import proofs.«144919_j11295763989053_2_alg».proof.Proof.KernelPooled
import proofs.«144919_j11295763989053_2_alg».proof.Proof.RefPooled

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, both programs end with the mean over the
    sequence axis projected by the weights: the kernel's result array by its run, the reference's by its stages. -/
theorem algebraic : Cert.algebraic_KernelIdeal_ReferenceIdeal := by
  intro m ρ m' ρ' _ hagree
  refine ⟨fun c => Cert.KernelIdeal.Pooled.result m c, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
